-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S320000x256 : Shape := ⟨2, ![320000, 256]⟩
abbrev S20000x1 : Shape := ⟨2, ![20000, 1]⟩
abbrev S320000 : Shape := ⟨1, ![320000]⟩
abbrev S256x256 : Shape := ⟨2, ![256, 256]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S20000x1 : S_.BroadcastsInDim S20000x1 (![] : Fin 0 → Fin S20000x1.rank)
  reducesTo_S20000x1_S_d0_1 : S20000x1.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256x256 .f32) (main_arg10 : FVec F S256 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S20000x256 .f32) (main_arg1 : FVec F S320000x256 .f32) (main_arg2 : FVec F S20000x1 .f32) (main_arg3 : IVec S320000 32) (main_arg4 : IVec S320000 32) (main_arg5 : FVec F S256x256 .f32) (main_arg6 : FVec F S256 .f32) (main_arg7 : FVec F S256x256 .f32) (main_arg8 : FVec F S256 .f32) (main_arg9 : FVec F S256x256 .f32) (main_arg10 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000x256 .f32 := Host.absf main_arg1
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S20000x1 .f32 := Host.absf main_arg2
  let main_cst_2 : FVec F S_ .f32 := constant S_ .f32 0x7F800000#32
  let main_v10 : FVec F S20000x1 .f32 := broadcastInDim S20000x1 ![] bcast_S_S20000x1 main_cst_2
  let main_v11 : IVec S20000x1 1 := cmpf .olt main_v9 main_v10
  let main_c_3 : IVec S_ 1 := constantI S_ 1 1#1
  let main_v12 : IVec S_ 1 := (fun x v => Host.reduce IntOp.andi x v reducesTo_S20000x1_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S20000x256 : Shape := ⟨2, ![20000, 256]⟩
abbrev S320000x256 : Shape := ⟨2, ![320000, 256]⟩
abbrev S20000x1 : Shape := ⟨2, ![20000, 1]⟩
abbrev S320000 : Shape := ⟨1, ![320000]⟩
abbrev S256x256 : Shape := ⟨2, ![256, 256]⟩
abbrev S256 : Shape := ⟨1, ![256]⟩
abbrev S1x256 : Shape := ⟨2, ![1, 256]⟩
abbrev S2000x256 : Shape := ⟨2, ![2000, 256]⟩
abbrev S_ : Shape := ⟨0, ![]⟩
abbrev S320000x1 : Shape := ⟨2, ![320000, 1]⟩

abbrev nBuf : Space → Nat
  | .hbm => 33
  | .vmem => 22
  | .smem => 0
  | _ => 0

abbrev bufTy : (tb : Table) → Fin (tcTables nBuf tb) → BufTy
  | .hbm, ⟨0, _⟩ => ⟨S20000x256, .f32⟩
  | .hbm, ⟨1, _⟩ => ⟨S320000x256, .f32⟩
  | .hbm, ⟨2, _⟩ => ⟨S20000x1, .f32⟩
  | .hbm, ⟨3, _⟩ => ⟨S320000, .i32⟩
  | .hbm, ⟨4, _⟩ => ⟨S320000, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S20000x256, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000x256, .f32⟩
  | .hbm, ⟨27, _⟩ => ⟨S320000x256, .f32⟩
  | .hbm, ⟨28, _⟩ => ⟨S_, .f32⟩
  | .hbm, ⟨29, _⟩ => ⟨S20000x256, .f32⟩
  | .hbm, ⟨30, _⟩ => ⟨S320000x1, .i32⟩
  | .hbm, ⟨31, _⟩ => ⟨S20000x256, .f32⟩
  | .hbm, ⟨32, _⟩ => ⟨S20000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S256x256_S256x256_1_0 : S256x256.Transposes [1, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S320000 : S_.BroadcastsInDim S320000 (![] : Fin 0 → Fin S320000.rank)
  bcast_S320000_S320000x1_0 : S320000.BroadcastsInDim S320000x1 (![0] : Fin 1 → Fin S320000x1.rank)
  shapeCasts_S2000x256_S2000x256 : S2000x256.ShapeCasts S2000x256
  bcast_S_S20000x256 : S_.BroadcastsInDim S20000x256 (![] : Fin 0 → Fin S20000x256.rank)
  dot_S2000x256_S256x256_S2000x256_1_0_0_1_n_n_wf : DotDims.WF S2000x256 S256x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S20000x256.size a
  hwx0_3 : ∀ i : grid0.Coords, EltTy.bits .f32 = 32 ∨ (Rect.block (s := S20000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S320000x256.size a
  hwx1_0 : ∀ i : grid1.Coords, EltTy.bits .f32 = 32 ∨ (Rect.block (s := S320000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S320000x256.size a
  hwx1_1 : ∀ i : grid1.Coords, EltTy.bits .f32 = 32 ∨ (Rect.block (s := S320000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S320000x256.size a
  hwx1_4 : ∀ i : grid1.Coords, EltTy.bits .f32 = 32 ∨ (Rect.block (s := S320000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .f32 = 32 ∨ (Rect.block (s := S20000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S20000x256.size a
  hwx2_4 : ∀ i : grid2.Coords, EltTy.bits .f32 = 32 ∨ (Rect.block (s := S20000x256) S2000x256.size (cc2_transform_4 i) (hinb2_4 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v6) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S20000x256 : Shape := ⟨2, ![20000, 256]⟩
abbrev S320000x256 : Shape := ⟨2, ![320000, 256]⟩
abbrev S20000x1 : Shape := ⟨2, ![20000, 1]⟩
abbrev S320000 : Shape := ⟨1, ![320000]⟩
abbrev S256x256 : Shape := ⟨2, ![256, 256]⟩
abbrev S256 : Shape := ⟨1, ![256]⟩
abbrev S1x256 : Shape := ⟨2, ![1, 256]⟩
abbrev S_ : Shape := ⟨0, ![]⟩
abbrev S320000x1 : Shape := ⟨2, ![320000, 1]⟩

abbrev nBuf : Space → Nat
  | .hbm => 92
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S320000x256, .f32⟩
  | .hbm, ⟨2, _⟩ => ⟨S20000x1, .f32⟩
  | .hbm, ⟨3, _⟩ => ⟨S320000, .i32⟩
  | .hbm, ⟨4, _⟩ => ⟨S320000, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S20000x256, .f32⟩
  | .hbm, ⟨13, _⟩ => ⟨S1x256, .f32⟩
  | .hbm, ⟨14, _⟩ => ⟨S20000x256, .f32⟩
  | .hbm, ⟨15, _⟩ => ⟨S20000x256, .f32⟩
  | .hbm, ⟨16, _⟩ => ⟨S_, .f32⟩
  | .hbm, ⟨17, _⟩ => ⟨S20000x256, .f32⟩
  | .hbm, ⟨18, _⟩ => ⟨S20000x256, .f32⟩
  | .hbm, ⟨19, _⟩ => ⟨S20000x256, .f32⟩
  | .hbm, ⟨20, _⟩ => ⟨S20000x256, .f32⟩
  | .hbm, ⟨21, _⟩ => ⟨S20000x256, .i1⟩
  | .hbm, ⟨22, _⟩ => ⟨S20000x256, .f32⟩
  | .hbm, ⟨23, _⟩ => ⟨S20000x256, .f32⟩
  | .hbm, ⟨24, _⟩ => ⟨S20000x256, .f32⟩
  | .hbm, ⟨25, _⟩ => ⟨S20000x256, .f32⟩
  | .hbm, ⟨26, _⟩ => ⟨S20000x256, .f32⟩
  | .hbm, ⟨27, _⟩ => ⟨S20000x256, .f32⟩
  | .hbm, ⟨28, _⟩ => ⟨S20000x256, .f32⟩
  | .hbm, ⟨29, _⟩ => ⟨S20000x256, .f32⟩
  | .hbm, ⟨30, _⟩ => ⟨S20000x256, .f32⟩
  | .hbm, ⟨31, _⟩ => ⟨S20000x256, .f32⟩
  | .hbm, ⟨32, _⟩ => ⟨S256x256, .f32⟩
  | .hbm, ⟨33, _⟩ => ⟨S320000x256, .f32⟩
  | .hbm, ⟨34, _⟩ => ⟨S1x256, .f32⟩
  | .hbm, ⟨35, _⟩ => ⟨S320000x256, .f32⟩
  | .hbm, ⟨36, _⟩ => ⟨S320000x256, .f32⟩
  | .hbm, ⟨37, _⟩ => ⟨S_, .f32⟩
  | .hbm, ⟨38, _⟩ => ⟨S320000x256, .f32⟩
  | .hbm, ⟨39, _⟩ => ⟨S320000x256, .f32⟩
  | .hbm, ⟨40, _⟩ => ⟨S320000x256, .f32⟩
  | .hbm, ⟨41, _⟩ => ⟨S320000x256, .f32⟩
  | .hbm, ⟨42, _⟩ => ⟨S320000x256, .i1⟩
  | .hbm, ⟨43, _⟩ => ⟨S320000x256, .f32⟩
  | .hbm, ⟨44, _⟩ => ⟨S320000x256, .f32⟩
  | .hbm, ⟨45, _⟩ => ⟨S320000x256, .f32⟩
  | .hbm, ⟨46, _⟩ => ⟨S320000x256, .f32⟩
  | .hbm, ⟨47, _⟩ => ⟨S320000x256, .f32⟩
  | .hbm, ⟨48, _⟩ => ⟨S320000x256, .f32⟩
  | .hbm, ⟨49, _⟩ => ⟨S320000x256, .f32⟩
  | .hbm, ⟨50, _⟩ => ⟨S320000x256, .f32⟩
  | .hbm, ⟨51, _⟩ => ⟨S320000x256, .f32⟩
  | .hbm, ⟨52, _⟩ => ⟨S320000x256, .f32⟩
  | .hbm, ⟨53, _⟩ => ⟨S_, .i32⟩
  | .hbm, ⟨54, _⟩ => ⟨S320000, .i32⟩
  | .hbm, ⟨55, _⟩ => ⟨S320000, .i1⟩
  | .hbm, ⟨56, _⟩ => ⟨S_, .i32⟩
  | .hbm, ⟨57, _⟩ => ⟨S320000, .i32⟩
  | .hbm, ⟨58, _⟩ => ⟨S320000, .i32⟩
  | .hbm, ⟨59, _⟩ => ⟨S320000, .i32⟩
  | .hbm, ⟨60, _⟩ => ⟨S320000x1, .i32⟩
  | .hbm, ⟨61, _⟩ => ⟨S320000x256, .f32⟩
  | .hbm, ⟨62, _⟩ => ⟨S320000x256, .f32⟩
  | .hbm, ⟨63, _⟩ => ⟨S_, .f32⟩
  | .hbm, ⟨64, _⟩ => ⟨S320000x256, .f32⟩
  | .hbm, ⟨65, _⟩ => ⟨S320000x256, .f32⟩
  | .hbm, ⟨66, _⟩ => ⟨S_, .f32⟩
  | .hbm, ⟨67, _⟩ => ⟨S20000x256, .f32⟩
  | .hbm, ⟨68, _⟩ => ⟨S320000x1, .i32⟩
  | .hbm, ⟨69, _⟩ => ⟨S20000x256, .f32⟩
  | .hbm, ⟨70, _⟩ => ⟨S20000x256, .f32⟩
  | .hbm, ⟨71, _⟩ => ⟨S256x256, .f32⟩
  | .hbm, ⟨72, _⟩ => ⟨S20000x256, .f32⟩
  | .hbm, ⟨73, _⟩ => ⟨S1x256, .f32⟩
  | .hbm, ⟨74, _⟩ => ⟨S20000x256, .f32⟩
  | .hbm, ⟨75, _⟩ => ⟨S20000x256, .f32⟩
  | .hbm, ⟨76, _⟩ => ⟨S_, .f32⟩
  | .hbm, ⟨77, _⟩ => ⟨S20000x256, .f32⟩
  | .hbm, ⟨78, _⟩ => ⟨S20000x256, .f32⟩
  | .hbm, ⟨79, _⟩ => ⟨S20000x256, .f32⟩
  | .hbm, ⟨80, _⟩ => ⟨S20000x256, .f32⟩
  | .hbm, ⟨81, _⟩ => ⟨S20000x256, .i1⟩
  | .hbm, ⟨82, _⟩ => ⟨S20000x256, .f32⟩
  | .hbm, ⟨83, _⟩ => ⟨S20000x256, .f32⟩
  | .hbm, ⟨84, _⟩ => ⟨S20000x256, .f32⟩
  | .hbm, ⟨85, _⟩ => ⟨S20000x256, .f32⟩
  | .hbm, ⟨86, _⟩ => ⟨S20000x256, .f32⟩
  | .hbm, ⟨87, _⟩ => ⟨S20000x256, .f32⟩
  | .hbm, ⟨88, _⟩ => ⟨S20000x256, .f32⟩
  | .hbm, ⟨89, _⟩ => ⟨S20000x256, .f32⟩
  | .hbm, ⟨90, _⟩ => ⟨S20000x256, .f32⟩
  | .hbm, ⟨91, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_c : Ref sig .tc := ⟨.hbm, 53, rfl⟩
abbrev main_v16 : Ref sig .tc := ⟨.hbm, 54, rfl⟩
abbrev main_v17 : Ref sig .tc := ⟨.hbm, 55, rfl⟩
abbrev main_c_0 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_call2_cst : Ref sig .tc := ⟨.hbm, 63, rfl⟩
abbrev main_call2_v0 : Ref sig .tc := ⟨.hbm, 64, rfl⟩
abbrev main_v24 : Ref sig .tc := ⟨.hbm, 65, rfl⟩
abbrev main_cst : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_call3_cst : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S_S320000 : S_.BroadcastsInDim S320000 (![] : Fin 0 → Fin S320000.rank)
  bcast_S320000_S320000x1_0 : S320000.BroadcastsInDim S320000x1 (![0] : Fin 1 → Fin S320000x1.rank)
  dot_S20000x256_S256x256_S20000x256_1_0_0_1_n_n_wf : DotDims.WF S20000x256 S256x256 S20000x256 [1] [0] [0] [1] [] []
  dot_S320000x256_S256x256_S320000x256_1_0_0_1_n_n_wf : DotDims.WF S320000x256 S256x256 S320000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1

variable [Facts₀]

def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf

class Facts : Prop extends Facts₀ where

variable [Facts]
-- ==== Proof.KernelRun.lean ====
/-
  The whole program's run with its result named: every weakly fair execution of the three kernels and the host
  operations between them terminates, the argument arrays end unchanged, and the result array ends at what the
  last boundary of the segment chain holds for it (the fold of the host stretches and the kernels' write-backs).
-/
import proofs.«180471_j30554397343953_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the six segments, read at the result array as well as at the arguments: the last thread state holds
    every unscoped buffer at the last boundary's contents, the result array among them. -/
theorem run_result : θ_run defs (onTc (τ := τ) (main (F := F))) ⟨m, fun _ => 0, ρ⟩ (fun r => ∀ c : Dev nD,
      r.2.mem ((c.tc : Thread nD τ).loc main_v18) = W6 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v18 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Whole

end
-- ==== Proof.Mish.lean ====
/-
  Mish on the extended reals, as both programs compute it.

  softplus a = max a 0 + log (1 + exp (-|a|)) and mish a = a * tanh (softplus a), with |a| = max a (-a). Both programs
  guard the softplus by the test "a - 0 is not equal to itself", which no extended real satisfies, so the guarded branch
  is never taken; one program negates |a| and the other subtracts it from zero, the same value. Below: the scalar
  function, the two chains of array operations (generic in the shape) that compute it entry by entry, the linear layer
  followed by mish as one function of whole arrays, and the three stages of the message-passing layer.
-/
import Idealize.ShloMosaic.PureOps.Ideal
import Idealize.ShloMosaic.PureOps.Ideal.Laws
import Idealize.ShloMosaic.Lib.ValueIdx

noncomputable section

open scoped BigOperators

namespace Cert.MishLayer

open Idealize.ShloMosaic Idealize.ShloMosaic.ValueIdx

/-- softplus a = max a 0 + log (1 + exp (-|a|)). -/
def softplusE (a : EReal) : EReal := max a 0 + Ideal.log1p (Ideal.exp (-(max a (-a))))

/-- mish a = a * tanh (softplus a). -/
def mishE (a : EReal) : EReal := a * Ideal.tanh (softplusE a)

/-- No extended real differs from itself (ordered comparison). -/
theorem cmp_one_self (x : EReal) : Ideal.cmp .one x x = 0#1 := by simp [Ideal.cmp]

/-- No extended real differs from itself (unordered comparison). -/
theorem cmp_une_self (x : EReal) : Ideal.cmp .une x x = 0#1 := by simp [Ideal.cmp]

/-- The chain of vector operations one program computes mish with: the zero is a splat scalar, the negation a
    subtraction from zero. -/
def mishK {s : Shape} (v : FVec Ideal s .f32) : FVec Ideal s .f32 :=
  mulf v (tanh (select
    (cmpf .one (subf v (broadcast s (Scalar.ofBits (F := Ideal) .f32 0x00000000#32)))
      (subf v (broadcast s (Scalar.ofBits (F := Ideal) .f32 0x00000000#32))))
    (addf v (broadcast s (Scalar.ofBits (F := Ideal) .f32 0x00000000#32)))
    (addf (maximumf v (broadcast s (Scalar.ofBits (F := Ideal) .f32 0x00000000#32)))
      (log1p (exp (subf (broadcast s (Scalar.ofBits (F := Ideal) .f32 0x00000000#32))
        (absf (subf v (broadcast s (Scalar.ofBits (F := Ideal) .f32 0x00000000#32))))))))))

/-- Entry by entry that chain is mish. -/
theorem mishK_apply {s : Shape} (v : FVec Ideal s .f32) (i : s.Idx) : mishK v i = mishE (v i) := by
  show v i * Ideal.tanh (Scalar.select (Ideal.cmp .one (v i - Ideal.ofBits .f32 0x00000000#32) (v i - Ideal.ofBits .f32 0x00000000#32))
    (v i + Ideal.ofBits .f32 0x00000000#32)
    (max (v i) (Ideal.ofBits .f32 0x00000000#32) + Ideal.log1p (Ideal.exp (Ideal.ofBits .f32 0x00000000#32
      - max (v i - Ideal.ofBits .f32 0x00000000#32) (-(v i - Ideal.ofBits .f32 0x00000000#32)))))) = _
  rw [Ideal.ofBits_zero_f32, sub_zero, cmp_one_self, select_zero, zero_sub]
  rfl

/-- The chain of host operations the other program computes mish with, over three arrays of zeros. -/
def mishH {s : Shape} (z0 z2 z5 v : FVec Ideal s .f32) : FVec Ideal s .f32 :=
  mulf v (Host.tanh (select (cmpf .une (subf v z2) (subf v z2)) (addf v z5)
    (addf (maximumf v z0) (Host.log1p (Host.exp (Host.negf (Host.absf (subf v z2))))))))

/-- Entry by entry that chain is mish, when the three arrays are zero everywhere. -/
theorem mishH_apply {s : Shape} (z0 z2 z5 v : FVec Ideal s .f32) (h0 : ∀ i, z0 i = 0) (h2 : ∀ i, z2 i = 0)
    (i : s.Idx) : mishH z0 z2 z5 v i = mishE (v i) := by
  show v i * Ideal.tanh (Scalar.select (Ideal.cmp .une (v i - z2 i) (v i - z2 i)) (v i + z5 i)
    (max (v i) (z0 i) + Ideal.log1p (Ideal.exp (-(max (v i - z2 i) (-(v i - z2 i))))))) = _
  rw [h0, h2, sub_zero, cmp_une_self, select_zero]
  rfl

/-- A matrix of extended reals. -/
abbrev Mat (n k : Nat) : Type := (⟨2, ![n, k]⟩ : Shape).Idx → EReal

/-- The linear layer at an entry: row p of X against column q of Wt, plus the bias at q. -/
def linAt {n : Nat} (X : Mat n 256) (Wt : Mat 256 256) (b : Fin 256 → EReal) (p : Fin n) (q : Fin 256) : EReal :=
  (∑ k : Fin 256, X (ix2 p k) * Wt (ix2 k q)) + b q

/-- mish of the linear layer, as one function of whole arrays. -/
def mishLin {n : Nat} (X : Mat n 256) (Wt : Mat 256 256) (b : Fin 256 → EReal) : Mat n 256 :=
  fun i => mishE (linAt X Wt b (i 0) (i 1))

/-- The message of an edge: the gathered source row plus mish of the edge's linear layer, clipped below at zero. -/
def message {n : Nat} (E Xs : Mat n 256) (Wt : Mat 256 256) (b : Fin 256 → EReal) : Mat n 256 :=
  fun i => max (Xs i + mishLin E Wt b i) 0

/-- The output: mish of the linear layer of the node rows plus the aggregated messages. -/
def output {n : Nat} (X A : Mat n 256) (Wt : Mat 256 256) (b : Fin 256 → EReal) : Mat n 256 :=
  mishLin (fun i => X i + A i) Wt b

/-- A bias vector as a function of the column. -/
abbrev bias1 (b : (⟨1, ![256]⟩ : Shape).Idx → EReal) : Fin 256 → EReal := fun q => b (ix1 q)

/-- The whole layer, over a row gather and a row scatter-add left abstract: project the nodes, gather the source row of
    every edge, form the messages, add them up per destination node, project the sum with the node rows. -/
def layer (gatherRows : Mat 20000 256 → Mat 320000 256) (scatterRows : Mat 320000 256 → Mat 20000 256)
    (nf : Mat 20000 256) (ef : Mat 320000 256) (Wd We Wo : Mat 256 256) (bd be bo : Fin 256 → EReal) : Mat 20000 256 :=
  output (mishLin nf Wd bd) (scatterRows (message ef (gatherRows (mishLin nf Wd bd)) We be)) Wo bo

end Cert.MishLayer

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.NodeProj.lean ====
/-
  The node projection (the first of the three kernels): its result array as one function of the arrays it finds.

  The grid has 10 points; point t loads rows 2000 t … 2000 t + 1999 of the node features, the whole transposed weight
  and the whole bias row, and writes back mish (rows · Wt + bias) as rows 2000 t … 2000 t + 1999 of the result. The
  matrix unit's product into a zero accumulator is the plain sum over the contracted axis, the change of float format
  before it is the identity, and the blocks tile the result, so the result array is mish of the linear layer of the
  whole arrays, entry by entry.
-/
import proofs.«180471_j30554397343953_2_alg».proof.Proof.Gen.KernelIdeal.Frame
import proofs.«180471_j30554397343953_2_alg».proof.Proof.Mish
import proofs.«180471_j30554397343953_2_alg».proof.Proof.LibMatmulPlain
import Idealize.ShloMosaic.Lib.Pipeline.Value
import Idealize.ShloMosaic.Lib.ValueLayout
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.NodeProj

open Cert.KernelIdeal Cert.KernelIdeal.Gen Cert.MishLayer

variable (V : (c : Dev nD) → (b : Ref sig .tc) → Buf (Elt Ideal) ((c : Thread nD τ).loc b))

theorem hz : (![0, 0] : Fin 2 → Nat) = fun _ => 0 := funext fun a => by fin_cases a <;> rfl

/-- The bias row as a function of the column. -/
abbrev biasRow (B : Mat 1 256) : Fin 256 → EReal := fun q => B (ix2 (0 : Fin 1) q)

/-- What the result array ends holding: mish of the linear layer of the arrays the kernel finds. -/
def G (c : Dev nD) : Mat 20000 256 :=
  mishLin (V c main_arg0 : Mat 20000 256) (V c main_v0 : Mat 256 256) (biasRow (V c main_v3 : Mat 1 256))

/-- The body's stored value at an entry of the block: mish of the row of the first block against the column of the
    second, plus the third's entry. -/
theorem pay_apply (x0 : Vec Ideal S2000x256 .f32) (x1 : Vec Ideal S256x256 .f32) (x2 : Vec Ideal S1x256 .f32)
    (p : Fin 2000) (q : Fin 256) :
    k0_pay1 (F := Ideal) x0 x1 x2 (ix2 p q)
      = mishE ((∑ k : Fin 256, x0 (ix2 p k) * x1 (ix2 k q)) + x2 (ix2 (0 : Fin 1) q)) := by
  have e : k0_pay1 (F := Ideal) x0 x1 x2
      = mishK (addf (matmul (DotDims.plain 2000 256 256) none (truncf .bf16 x0 bitsLt_bf16_f32)
          (truncf .bf16 (shapeCast S256x256 x1 shapeCasts_S256x256_S256x256) bitsLt_bf16_f32)
          (constant (F := Ideal) S2000x256 .f32 0x00000000#32))
        (broadcastTo S2000x256 (shapeCast S1x256 x2 shapeCasts_S1x256_S1x256) broadcasts_S1x256_S2000x256)) := rfl
  rw [e, mishK_apply, addf_apply, MatmulPlain.matmul_zero_apply, broadcastTo_1b_ab_apply, shapeCast_self, shapeCast_self]
  rfl

/-- The index maps over the grid: the row blocks move with the point, the weight and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first window's block at point t is rows 2000 t … of its array. -/
theorem blk0_apply (c : Dev nD) (t : Fin cfg0.N) (p : Fin 2000) (k : Fin 256) (a : Fin 20000)
    (ha : a.val = t.val * 2000 + p.val) :
    (iblk0 V c 0 t : Vec Ideal S2000x256 .f32) (ix2 p k) = (V c main_arg0 : Mat 20000 256) (ix2 a k) := by
  obtain ⟨e0, e1, -⟩ := idx_facts t
  unfold iblk0
  rw [View.read_apply]
  show (V c main_arg0 : Mat 20000 256) _ = (V c main_arg0 : Mat 20000 256) _
  congr 1
  funext ax; apply Fin.ext
  match ax with
  | ⟨0, _⟩ => show win0_0.index t (0 : Fin 2) * 2000 + 1 * p.val = a.val; rw [e0, ha]; omega
  | ⟨1, _⟩ => show win0_0.index t (1 : Fin 2) * 256 + 1 * k.val = k.val; rw [e1]; omega

/-- The second window's block is its whole array. -/
theorem blk1_apply (c : Dev nD) (t : Fin cfg0.N) (k q : Fin 256) :
    (iblk0 V c 1 t : Vec Ideal S256x256 .f32) (ix2 k q) = (V c main_v0 : Mat 256 256) (ix2 k q) := by
  obtain ⟨-, -, e2, e3, -⟩ := idx_facts t
  unfold iblk0
  rw [View.read_apply]
  show (V c main_v0 : Mat 256 256) _ = (V c main_v0 : Mat 256 256) _
  congr 1
  funext ax; apply Fin.ext
  match ax with
  | ⟨0, _⟩ => show win0_1.index t (0 : Fin 2) * 256 + 1 * k.val = k.val; rw [e2]; omega
  | ⟨1, _⟩ => show win0_1.index t (1 : Fin 2) * 256 + 1 * q.val = q.val; rw [e3]; omega

/-- The third window's block is its whole array. -/
theorem blk2_apply (c : Dev nD) (t : Fin cfg0.N) (q : Fin 256) :
    (iblk0 V c 2 t : Vec Ideal S1x256 .f32) (ix2 (0 : Fin 1) q) = (V c main_v3 : Mat 1 256) (ix2 (0 : Fin 1) q) := by
  obtain ⟨-, -, -, -, e4, e5, -⟩ := idx_facts t
  unfold iblk0
  rw [View.read_apply]
  show (V c main_v3 : Mat 1 256) _ = (V c main_v3 : Mat 1 256) _
  congr 1
  funext ax; apply Fin.ext
  match ax with
  | ⟨0, _⟩ => show win0_2.index t (0 : Fin 2) * 1 + 1 * 0 = 0; rw [e4]
  | ⟨1, _⟩ => show win0_2.index t (1 : Fin 2) * 256 + 1 * q.val = q.val; rw [e5]; omega

/-- What point t stores at an entry of its block is the whole-array function at the entry's place in the array. -/
theorem point_eq (c : Dev nD) (t : Fin cfg0.N) (y : S2000x256.Idx) (i : S20000x256.Idx)
    (hi0 : (i 0).val = t.val * 2000 + (y 0).val) (hi1 : (i 1).val = (y 1).val) :
    k0_pay1 (F := Ideal) (iblk0 V c 0 t) (iblk0 V c 1 t) (iblk0 V c 2 t) y = G V c i := by
  obtain ⟨p, q, rfl⟩ : ∃ (p : Fin 2000) (q : Fin 256), y = ix2 p q := ⟨y 0, y 1, eq_ix2 y⟩
  obtain ⟨a, b, rfl⟩ : ∃ (a : Fin 20000) (b : Fin 256), i = ix2 a b := ⟨i 0, i 1, eq_ix2 i⟩
  obtain rfl : b = q := Fin.ext hi1
  refine (pay_apply (iblk0 V c 0 t) (iblk0 V c 1 t) (iblk0 V c 2 t) p b).trans ?_
  unfold G mishLin linAt
  rw [blk2_apply V c t b]
  refine congrArg mishE (congrArg (· + _) (Finset.sum_congr rfl fun k _ => ?_))
  rw [blk0_apply V c t p k a hi0, blk1_apply V c t k b]

/-- What point t writes back is block t of the whole-array function. -/
theorem flushed_eq (c : Dev nD) (t : Fin cfg0.N) :
    (dat0 V c).flushed 3 t = ((cfg0.win 3).blk t).view.read (Elt Ideal) (G V c) := by
  obtain ⟨-, -, -, -, -, -, e6, e7⟩ := idx_facts t
  show (cfg0.win 3).cut (grid0.coords t) ((dat0 V c).after 3 t) = _
  rw [after0_3]
  unfold out0_3
  rw [View.canon_unit_zero hz]
  simp only [View.ld_unit_zero (S := S2000x256) hz, View.ld_unit_zero (S := S256x256) hz, View.ld_unit_zero (S := S1x256) hz]
  funext j
  show k0_pay1 (F := Ideal) (iblk0 V c 0 t) (iblk0 V c 1 t) (iblk0 V c 2 t) j = G V c (((cfg0.win 3).blk t).view.emb j)
  refine point_eq V c t j _ ?_ ?_
  · show win0_3.index t (0 : Fin 2) * 2000 + 1 * (j 0).val = t.val * 2000 + (j 0).val; rw [e6]; omega
  · show win0_3.index t (1 : Fin 2) * 256 + 1 * (j 1).val = (j 1).val; rw [e7]; omega

/-- An index is in point t's block iff each coordinate is in the block's range. -/
theorem mem_blk (t : Fin cfg0.N) (i : S20000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v6).slice (win0_3.rect t)).set ↔ _
  rw [View.set_slice_whole, Rect.mem_set_unit]
  exact Iff.rfl

/-- Every entry of the result is in the block of the point its row falls in. -/
theorem cover (i : S20000x256.Idx) : ∃ t : Fin cfg0.N, (cfg0.win 3).flush t = true ∧ i ∈ ((cfg0.win 3).blk t).view.set := by
  have hi0 : (i 0).val < 20000 := (i 0).isLt
  have hi1 : (i 1).val < 256 := (i 1).isLt
  have hN : cfg0.N = 10 := N_0
  have ht : (i 0).val / 2000 < cfg0.N := by rw [hN]; omega
  refine ⟨⟨(i 0).val / 2000, ht⟩, flush0_3 _, ?_⟩
  rw [mem_blk]
  obtain ⟨-, -, -, -, -, -, e6, e7⟩ := idx_facts ⟨(i 0).val / 2000, ht⟩
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, ht⟩ (1 : Fin 2) * 256 ≤ (i 1).val ∧ (i 1).val < win0_3.index ⟨(i 0).val / 2000, ht⟩ (1 : Fin 2) * 256 + 256
    rw [e7]; omega

/-- The result array after the kernel: mish of the linear layer of the arrays it found. -/
theorem final (c : Dev nD) : (dat0 V c).arrAt 3 cfg0.N = G V c :=
  (dat0 V c).arrAt_eq_of_cover 3 (G V c) (fun t _ => flushed_eq V c t) (cover)

end Cert.KernelIdeal.NodeProj

end
-- ==== Proof.EdgeMsg.lean ====
/-
  The edge kernel (the second of the three): its result array as one function of the arrays it finds.

  The grid has 160 points; point t loads rows 2000 t … 2000 t + 1999 of the edge features and of the gathered source
  rows, the whole transposed weight and the whole bias row, and writes back max (source + mish (edge rows · Wt + bias)) 0
  as the same rows of the result. The blocks tile the result, so the result array is the message of every edge, entry
  by entry.
-/
import proofs.«180471_j30554397343953_2_alg».proof.Proof.Gen.KernelIdeal.Frame
import proofs.«180471_j30554397343953_2_alg».proof.Proof.Mish
import proofs.«180471_j30554397343953_2_alg».proof.Proof.LibMatmulPlain
import Idealize.ShloMosaic.Lib.Pipeline.Value
import Idealize.ShloMosaic.Lib.ValueLayout
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.EdgeMsg

open Cert.KernelIdeal Cert.KernelIdeal.Gen Cert.MishLayer

variable (V : (c : Dev nD) → (b : Ref sig .tc) → Buf (Elt Ideal) ((c : Thread nD τ).loc b))

theorem hz : (![0, 0] : Fin 2 → Nat) = fun _ => 0 := funext fun a => by fin_cases a <;> rfl

/-- The bias row as a function of the column. -/
abbrev biasRow (B : Mat 1 256) : Fin 256 → EReal := fun q => B (ix2 (0 : Fin 1) q)

/-- What the result array ends holding: the message of every edge, from the arrays the kernel finds. -/
def G (c : Dev nD) : Mat 320000 256 :=
  message (V c main_arg1 : Mat 320000 256) (V c main_v13 : Mat 320000 256) (V c main_v1 : Mat 256 256)
    (biasRow (V c main_v4 : Mat 1 256))

/-- The body's stored value at an entry of the block. -/
theorem pay_apply (x0 : Vec Ideal S2000x256 .f32) (x2 : Vec Ideal S256x256 .f32) (x6 : Vec Ideal S1x256 .f32)
    (x26 : Vec Ideal S2000x256 .f32) (p : Fin 2000) (q : Fin 256) :
    k1_pay1 (F := Ideal) x0 x2 x6 x26 (ix2 p q)
      = max (x26 (ix2 p q) + mishE ((∑ k : Fin 256, x0 (ix2 p k) * x2 (ix2 k q)) + x6 (ix2 (0 : Fin 1) q))) 0 := by
  have e : k1_pay1 (F := Ideal) x0 x2 x6 x26
      = maximumf (addf (shapeCast S2000x256 x26 shapeCasts_S2000x256_S2000x256)
          (mishK (addf (matmul (DotDims.plain 2000 256 256) none (truncf .bf16 x0 bitsLt_bf16_f32)
            (truncf .bf16 (shapeCast S256x256 x2 shapeCasts_S256x256_S256x256) bitsLt_bf16_f32)
            (constant (F := Ideal) S2000x256 .f32 0x00000000#32))
          (broadcastTo S2000x256 (shapeCast S1x256 x6 shapeCasts_S1x256_S1x256) broadcasts_S1x256_S2000x256))))
        (broadcast S2000x256 (Scalar.ofBits (F := Ideal) .f32 0x00000000#32)) := rfl
  rw [e, maximumf_apply, addf_apply, mishK_apply, addf_apply, MatmulPlain.matmul_zero_apply, broadcastTo_1b_ab_apply,
    shapeCast_self, shapeCast_self, shapeCast_self]
  show max _ (Ideal.ofBits .f32 0x00000000#32) = _
  rw [Ideal.ofBits_zero_f32]
  rfl

/-- The index maps over the grid: the row blocks move with the point, the weight and the bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The first window's block at point t is rows 2000 t … of the edge features. -/
theorem blk0_apply (c : Dev nD) (t : Fin cfg1.N) (p : Fin 2000) (k : Fin 256) (a : Fin 320000)
    (ha : a.val = t.val * 2000 + p.val) :
    (iblk1 V c 0 t : Vec Ideal S2000x256 .f32) (ix2 p k) = (V c main_arg1 : Mat 320000 256) (ix2 a k) := by
  obtain ⟨e0, e1, -⟩ := idx_facts t
  unfold iblk1
  rw [View.read_apply]
  show (V c main_arg1 : Mat 320000 256) _ = (V c main_arg1 : Mat 320000 256) _
  congr 1
  funext ax; apply Fin.ext
  match ax with
  | ⟨0, _⟩ => show win1_0.index t (0 : Fin 2) * 2000 + 1 * p.val = a.val; rw [e0, ha]; omega
  | ⟨1, _⟩ => show win1_0.index t (1 : Fin 2) * 256 + 1 * k.val = k.val; rw [e1]; omega

/-- The second window's block at point t is rows 2000 t … of the gathered source rows. -/
theorem blk1_apply (c : Dev nD) (t : Fin cfg1.N) (p : Fin 2000) (k : Fin 256) (a : Fin 320000)
    (ha : a.val = t.val * 2000 + p.val) :
    (iblk1 V c 1 t : Vec Ideal S2000x256 .f32) (ix2 p k) = (V c main_v13 : Mat 320000 256) (ix2 a k) := by
  obtain ⟨-, -, e0, e1, -⟩ := idx_facts t
  unfold iblk1
  rw [View.read_apply]
  show (V c main_v13 : Mat 320000 256) _ = (V c main_v13 : Mat 320000 256) _
  congr 1
  funext ax; apply Fin.ext
  match ax with
  | ⟨0, _⟩ => show win1_1.index t (0 : Fin 2) * 2000 + 1 * p.val = a.val; rw [e0, ha]; omega
  | ⟨1, _⟩ => show win1_1.index t (1 : Fin 2) * 256 + 1 * k.val = k.val; rw [e1]; omega

/-- The third window's block is its whole array. -/
theorem blk2_apply (c : Dev nD) (t : Fin cfg1.N) (k q : Fin 256) :
    (iblk1 V c 2 t : Vec Ideal S256x256 .f32) (ix2 k q) = (V c main_v1 : Mat 256 256) (ix2 k q) := by
  obtain ⟨-, -, -, -, e2, e3, -⟩ := idx_facts t
  unfold iblk1
  rw [View.read_apply]
  show (V c main_v1 : Mat 256 256) _ = (V c main_v1 : Mat 256 256) _
  congr 1
  funext ax; apply Fin.ext
  match ax with
  | ⟨0, _⟩ => show win1_2.index t (0 : Fin 2) * 256 + 1 * k.val = k.val; rw [e2]; omega
  | ⟨1, _⟩ => show win1_2.index t (1 : Fin 2) * 256 + 1 * q.val = q.val; rw [e3]; omega

/-- The fourth window's block is its whole array. -/
theorem blk3_apply (c : Dev nD) (t : Fin cfg1.N) (q : Fin 256) :
    (iblk1 V c 3 t : Vec Ideal S1x256 .f32) (ix2 (0 : Fin 1) q) = (V c main_v4 : Mat 1 256) (ix2 (0 : Fin 1) q) := by
  obtain ⟨-, -, -, -, -, -, e4, e5, -⟩ := idx_facts t
  unfold iblk1
  rw [View.read_apply]
  show (V c main_v4 : Mat 1 256) _ = (V c main_v4 : Mat 1 256) _
  congr 1
  funext ax; apply Fin.ext
  match ax with
  | ⟨0, _⟩ => show win1_3.index t (0 : Fin 2) * 1 + 1 * 0 = 0; rw [e4]
  | ⟨1, _⟩ => show win1_3.index t (1 : Fin 2) * 256 + 1 * q.val = q.val; rw [e5]; omega

/-- What point t stores at an entry of its block is the whole-array function at the entry's place in the array. -/
theorem point_eq (c : Dev nD) (t : Fin cfg1.N) (y : S2000x256.Idx) (i : S320000x256.Idx)
    (hi0 : (i 0).val = t.val * 2000 + (y 0).val) (hi1 : (i 1).val = (y 1).val) :
    k1_pay1 (F := Ideal) (iblk1 V c 0 t) (iblk1 V c 2 t) (iblk1 V c 3 t) (iblk1 V c 1 t) y = G V c i := by
  obtain ⟨p, q, rfl⟩ : ∃ (p : Fin 2000) (q : Fin 256), y = ix2 p q := ⟨y 0, y 1, eq_ix2 y⟩
  obtain ⟨a, b, rfl⟩ : ∃ (a : Fin 320000) (b : Fin 256), i = ix2 a b := ⟨i 0, i 1, eq_ix2 i⟩
  obtain rfl : b = q := Fin.ext hi1
  refine (pay_apply (iblk1 V c 0 t) (iblk1 V c 2 t) (iblk1 V c 3 t) (iblk1 V c 1 t) p b).trans ?_
  unfold G message mishLin linAt
  rw [blk3_apply V c t b, blk1_apply V c t p b a hi0]
  refine congrArg (fun z => max (_ + mishE (z + _)) 0) (Finset.sum_congr rfl fun k _ => ?_)
  rw [blk0_apply V c t p k a hi0, blk2_apply V c t k b]

/-- What point t writes back is block t of the whole-array function. -/
theorem flushed_eq (c : Dev nD) (t : Fin cfg1.N) :
    (dat1 V c).flushed 4 t = ((cfg1.win 4).blk t).view.read (Elt Ideal) (G V c) := by
  obtain ⟨-, -, -, -, -, -, -, -, e6, e7⟩ := idx_facts t
  show (cfg1.win 4).cut (grid1.coords t) ((dat1 V c).after 4 t) = _
  rw [after1_4]
  unfold out1_4
  rw [View.canon_unit_zero hz]
  simp only [View.ld_unit_zero (S := S2000x256) hz, View.ld_unit_zero (S := S256x256) hz, View.ld_unit_zero (S := S1x256) hz]
  funext j
  show k1_pay1 (F := Ideal) (iblk1 V c 0 t) (iblk1 V c 2 t) (iblk1 V c 3 t) (iblk1 V c 1 t) j = G V c (((cfg1.win 4).blk t).view.emb j)
  refine point_eq V c t j _ ?_ ?_
  · show win1_4.index t (0 : Fin 2) * 2000 + 1 * (j 0).val = t.val * 2000 + (j 0).val; rw [e6]; omega
  · show win1_4.index t (1 : Fin 2) * 256 + 1 * (j 1).val = (j 1).val; rw [e7]; omega

/-- An index is in point t's block iff each coordinate is in the block's range. -/
theorem mem_blk (t : Fin cfg1.N) (i : S320000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v14).slice (win1_4.rect t)).set ↔ _
  rw [View.set_slice_whole, Rect.mem_set_unit]
  exact Iff.rfl

/-- Every entry of the result is in the block of the point its row falls in. -/
theorem cover (i : S320000x256.Idx) : ∃ t : Fin cfg1.N, (cfg1.win 4).flush t = true ∧ i ∈ ((cfg1.win 4).blk t).view.set := by
  have hi0 : (i 0).val < 320000 := (i 0).isLt
  have hi1 : (i 1).val < 256 := (i 1).isLt
  have hN : cfg1.N = 160 := N_1
  have ht : (i 0).val / 2000 < cfg1.N := by rw [hN]; omega
  refine ⟨⟨(i 0).val / 2000, ht⟩, flush1_4 _, ?_⟩
  rw [mem_blk]
  obtain ⟨-, -, -, -, -, -, -, -, e6, e7⟩ := idx_facts ⟨(i 0).val / 2000, ht⟩
  intro a
  match a with
  | ⟨0, _⟩ =>
    show win1_4.index ⟨(i 0).val / 2000, ht⟩ (0 : Fin 2) * 2000 ≤ (i 0).val ∧ (i 0).val < win1_4.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win1_4.index ⟨(i 0).val / 2000, ht⟩ (1 : Fin 2) * 256 ≤ (i 1).val ∧ (i 1).val < win1_4.index ⟨(i 0).val / 2000, ht⟩ (1 : Fin 2) * 256 + 256
    rw [e7]; omega

/-- The result array after the kernel: the message of every edge. -/
theorem final (c : Dev nD) : (dat1 V c).arrAt 4 cfg1.N = G V c :=
  (dat1 V c).arrAt_eq_of_cover 4 (G V c) (fun t _ => flushed_eq V c t) (cover)

end Cert.KernelIdeal.EdgeMsg

end
-- ==== Proof.NodeOut.lean ====
/-
  The output kernel (the third of the three): its result array as one function of the arrays it finds.

  The grid has 10 points; point t loads rows 2000 t … 2000 t + 1999 of the node rows and of the aggregated messages,
  the whole transposed weight and the whole bias row, and writes back mish ((node rows + aggregated rows) · Wt + bias) as
  the same rows of the result. The blocks tile the result.
-/
import proofs.«180471_j30554397343953_2_alg».proof.Proof.Gen.KernelIdeal.Frame
import proofs.«180471_j30554397343953_2_alg».proof.Proof.Mish
import proofs.«180471_j30554397343953_2_alg».proof.Proof.LibMatmulPlain
import Idealize.ShloMosaic.Lib.Pipeline.Value
import Idealize.ShloMosaic.Lib.ValueLayout
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.NodeOut

open Cert.KernelIdeal Cert.KernelIdeal.Gen Cert.MishLayer

variable (V : (c : Dev nD) → (b : Ref sig .tc) → Buf (Elt Ideal) ((c : Thread nD τ).loc b))

theorem hz : (![0, 0] : Fin 2 → Nat) = fun _ => 0 := funext fun a => by fin_cases a <;> rfl

/-- The bias row as a function of the column. -/
abbrev biasRow (B : Mat 1 256) : Fin 256 → EReal := fun q => B (ix2 (0 : Fin 1) q)

/-- What the result array ends holding: mish of the linear layer of node rows plus aggregated messages. -/
def G (c : Dev nD) : Mat 20000 256 :=
  output (V c main_v6 : Mat 20000 256) (V c main_v17 : Mat 20000 256) (V c main_v2 : Mat 256 256)
    (biasRow (V c main_v5 : Mat 1 256))

/-- The body's stored value at an entry of the block. -/
theorem pay_apply (x0 x1 : Vec Ideal S2000x256 .f32) (x6 : Vec Ideal S256x256 .f32) (x10 : Vec Ideal S1x256 .f32)
    (p : Fin 2000) (q : Fin 256) :
    k2_pay1 (F := Ideal) x0 x1 x6 x10 (ix2 p q)
      = mishE ((∑ k : Fin 256, (x0 (ix2 p k) + x1 (ix2 p k)) * x6 (ix2 k q)) + x10 (ix2 (0 : Fin 1) q)) := by
  have e : k2_pay1 (F := Ideal) x0 x1 x6 x10
      = mishK (addf (matmul (DotDims.plain 2000 256 256) none
          (truncf .bf16 (addf (shapeCast S2000x256 x0 shapeCasts_S2000x256_S2000x256)
            (shapeCast S2000x256 x1 shapeCasts_S2000x256_S2000x256)) bitsLt_bf16_f32)
          (truncf .bf16 (shapeCast S256x256 x6 shapeCasts_S256x256_S256x256) bitsLt_bf16_f32)
          (constant (F := Ideal) S2000x256 .f32 0x00000000#32))
        (broadcastTo S2000x256 (shapeCast S1x256 x10 shapeCasts_S1x256_S1x256) broadcasts_S1x256_S2000x256)) := rfl
  rw [e, mishK_apply, addf_apply, MatmulPlain.matmul_zero_apply, broadcastTo_1b_ab_apply, shapeCast_self, shapeCast_self,
    shapeCast_self, shapeCast_self]
  rfl

/-- The index maps over the grid: the row blocks move with the point, the weight and the bias stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The first window's block at point t is rows 2000 t … of the node rows. -/
theorem blk0_apply (c : Dev nD) (t : Fin cfg2.N) (p : Fin 2000) (k : Fin 256) (a : Fin 20000)
    (ha : a.val = t.val * 2000 + p.val) :
    (iblk2 V c 0 t : Vec Ideal S2000x256 .f32) (ix2 p k) = (V c main_v6 : Mat 20000 256) (ix2 a k) := by
  obtain ⟨e0, e1, -⟩ := idx_facts t
  unfold iblk2
  rw [View.read_apply]
  show (V c main_v6 : Mat 20000 256) _ = (V c main_v6 : Mat 20000 256) _
  congr 1
  funext ax; apply Fin.ext
  match ax with
  | ⟨0, _⟩ => show win2_0.index t (0 : Fin 2) * 2000 + 1 * p.val = a.val; rw [e0, ha]; omega
  | ⟨1, _⟩ => show win2_0.index t (1 : Fin 2) * 256 + 1 * k.val = k.val; rw [e1]; omega

/-- The second window's block at point t is rows 2000 t … of the aggregated messages. -/
theorem blk1_apply (c : Dev nD) (t : Fin cfg2.N) (p : Fin 2000) (k : Fin 256) (a : Fin 20000)
    (ha : a.val = t.val * 2000 + p.val) :
    (iblk2 V c 1 t : Vec Ideal S2000x256 .f32) (ix2 p k) = (V c main_v17 : Mat 20000 256) (ix2 a k) := by
  obtain ⟨-, -, e0, e1, -⟩ := idx_facts t
  unfold iblk2
  rw [View.read_apply]
  show (V c main_v17 : Mat 20000 256) _ = (V c main_v17 : Mat 20000 256) _
  congr 1
  funext ax; apply Fin.ext
  match ax with
  | ⟨0, _⟩ => show win2_1.index t (0 : Fin 2) * 2000 + 1 * p.val = a.val; rw [e0, ha]; omega
  | ⟨1, _⟩ => show win2_1.index t (1 : Fin 2) * 256 + 1 * k.val = k.val; rw [e1]; omega

/-- The third window's block is its whole array. -/
theorem blk2_apply (c : Dev nD) (t : Fin cfg2.N) (k q : Fin 256) :
    (iblk2 V c 2 t : Vec Ideal S256x256 .f32) (ix2 k q) = (V c main_v2 : Mat 256 256) (ix2 k q) := by
  obtain ⟨-, -, -, -, e2, e3, -⟩ := idx_facts t
  unfold iblk2
  rw [View.read_apply]
  show (V c main_v2 : Mat 256 256) _ = (V c main_v2 : Mat 256 256) _
  congr 1
  funext ax; apply Fin.ext
  match ax with
  | ⟨0, _⟩ => show win2_2.index t (0 : Fin 2) * 256 + 1 * k.val = k.val; rw [e2]; omega
  | ⟨1, _⟩ => show win2_2.index t (1 : Fin 2) * 256 + 1 * q.val = q.val; rw [e3]; omega

/-- The fourth window's block is its whole array. -/
theorem blk3_apply (c : Dev nD) (t : Fin cfg2.N) (q : Fin 256) :
    (iblk2 V c 3 t : Vec Ideal S1x256 .f32) (ix2 (0 : Fin 1) q) = (V c main_v5 : Mat 1 256) (ix2 (0 : Fin 1) q) := by
  obtain ⟨-, -, -, -, -, -, e4, e5, -⟩ := idx_facts t
  unfold iblk2
  rw [View.read_apply]
  show (V c main_v5 : Mat 1 256) _ = (V c main_v5 : Mat 1 256) _
  congr 1
  funext ax; apply Fin.ext
  match ax with
  | ⟨0, _⟩ => show win2_3.index t (0 : Fin 2) * 1 + 1 * 0 = 0; rw [e4]
  | ⟨1, _⟩ => show win2_3.index t (1 : Fin 2) * 256 + 1 * q.val = q.val; rw [e5]; omega

/-- What point t stores at an entry of its block is the whole-array function at the entry's place in the array. -/
theorem point_eq (c : Dev nD) (t : Fin cfg2.N) (y : S2000x256.Idx) (i : S20000x256.Idx)
    (hi0 : (i 0).val = t.val * 2000 + (y 0).val) (hi1 : (i 1).val = (y 1).val) :
    k2_pay1 (F := Ideal) (iblk2 V c 0 t) (iblk2 V c 1 t) (iblk2 V c 2 t) (iblk2 V c 3 t) y = G V c i := by
  obtain ⟨p, q, rfl⟩ : ∃ (p : Fin 2000) (q : Fin 256), y = ix2 p q := ⟨y 0, y 1, eq_ix2 y⟩
  obtain ⟨a, b, rfl⟩ : ∃ (a : Fin 20000) (b : Fin 256), i = ix2 a b := ⟨i 0, i 1, eq_ix2 i⟩
  obtain rfl : b = q := Fin.ext hi1
  refine (pay_apply (iblk2 V c 0 t) (iblk2 V c 1 t) (iblk2 V c 2 t) (iblk2 V c 3 t) p b).trans ?_
  unfold G output mishLin linAt
  rw [blk3_apply V c t b]
  refine congrArg mishE (congrArg (· + _) (Finset.sum_congr rfl fun k _ => ?_))
  rw [blk0_apply V c t p k a hi0, blk1_apply V c t p k a hi0, blk2_apply V c t k b]

/-- What point t writes back is block t of the whole-array function. -/
theorem flushed_eq (c : Dev nD) (t : Fin cfg2.N) :
    (dat2 V c).flushed 4 t = ((cfg2.win 4).blk t).view.read (Elt Ideal) (G V c) := by
  obtain ⟨-, -, -, -, -, -, -, -, e6, e7⟩ := idx_facts t
  show (cfg2.win 4).cut (grid2.coords t) ((dat2 V c).after 4 t) = _
  rw [after2_4]
  unfold out2_4
  rw [View.canon_unit_zero hz]
  simp only [View.ld_unit_zero (S := S2000x256) hz, View.ld_unit_zero (S := S256x256) hz, View.ld_unit_zero (S := S1x256) hz]
  funext j
  show k2_pay1 (F := Ideal) (iblk2 V c 0 t) (iblk2 V c 1 t) (iblk2 V c 2 t) (iblk2 V c 3 t) j = G V c (((cfg2.win 4).blk t).view.emb j)
  refine point_eq V c t j _ ?_ ?_
  · show win2_4.index t (0 : Fin 2) * 2000 + 1 * (j 0).val = t.val * 2000 + (j 0).val; rw [e6]; omega
  · show win2_4.index t (1 : Fin 2) * 256 + 1 * (j 1).val = (j 1).val; rw [e7]; omega

/-- An index is in point t's block iff each coordinate is in the block's range. -/
theorem mem_blk (t : Fin cfg2.N) (i : S20000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v18).slice (win2_4.rect t)).set ↔ _
  rw [View.set_slice_whole, Rect.mem_set_unit]
  exact Iff.rfl

/-- Every entry of the result is in the block of the point its row falls in. -/
theorem cover (i : S20000x256.Idx) : ∃ t : Fin cfg2.N, (cfg2.win 4).flush t = true ∧ i ∈ ((cfg2.win 4).blk t).view.set := by
  have hi0 : (i 0).val < 20000 := (i 0).isLt
  have hi1 : (i 1).val < 256 := (i 1).isLt
  have hN : cfg2.N = 10 := N_2
  have ht : (i 0).val / 2000 < cfg2.N := by rw [hN]; omega
  refine ⟨⟨(i 0).val / 2000, ht⟩, flush2_4 _, ?_⟩
  rw [mem_blk]
  obtain ⟨-, -, -, -, -, -, -, -, e6, e7⟩ := idx_facts ⟨(i 0).val / 2000, ht⟩
  intro a
  match a with
  | ⟨0, _⟩ =>
    show win2_4.index ⟨(i 0).val / 2000, ht⟩ (0 : Fin 2) * 2000 ≤ (i 0).val ∧ (i 0).val < win2_4.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win2_4.index ⟨(i 0).val / 2000, ht⟩ (1 : Fin 2) * 256 ≤ (i 1).val ∧ (i 1).val < win2_4.index ⟨(i 0).val / 2000, ht⟩ (1 : Fin 2) * 256 + 256
    rw [e7]; omega

/-- The result array after the kernel. -/
theorem final (c : Dev nD) : (dat2 V c).arrAt 4 cfg2.N = G V c :=
  (dat2 V c).arrAt_eq_of_cover 4 (G V c) (fun t _ => flushed_eq V c t) (cover)

end Cert.KernelIdeal.NodeOut

end
-- ==== Proof.KernelLayer.lean ====
/-
  The result array of the three-kernel program as the layer's function of the argument arrays.

  The contents of every buffer at the boundaries of the segment chain are a fold: a host stretch applies its operations,
  a kernel replaces its result array by what its write-backs leave and keeps every other buffer. Reading the fold at
  the result array, backwards: the output kernel's function of the node rows, the aggregated messages, the transposed
  output weight and the output bias; the aggregated messages are the host's scatter-add of the edge kernel's result;
  that result is the message function of the edge features and the host's gather of the node rows; the node rows are
  the node kernel's function of the node features. The weights reach every kernel transposed by the host and the
  biases reshaped to one row.
-/
import proofs.«180471_j30554397343953_2_alg».proof.Proof.Gen.KernelIdeal.Frame
import proofs.«180471_j30554397343953_2_alg».proof.Proof.Mish
import proofs.«180471_j30554397343953_2_alg».proof.Proof.NodeProj
import proofs.«180471_j30554397343953_2_alg».proof.Proof.EdgeMsg
import proofs.«180471_j30554397343953_2_alg».proof.Proof.NodeOut
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.StableHlo

namespace Cert.KernelIdeal.Layer

open Cert.KernelIdeal Cert.KernelIdeal.Gen Cert.MishLayer

variable (m : (ℓ : Loc nD τ sig) → Buf (Elt Ideal) ℓ) (ρ : Dev nD → PrngReg)

/-- The host's transpose of a weight. -/
abbrev tr (W : Mat 256 256) : Mat 256 256 := transpose S256x256 [1, 0] W transposes_S256x256_S256x256_1_0

/-- The host's row gather at the start indices made from the source node of every edge. -/
abbrev gatherRows (src : (⟨S320000, .i32⟩ : BufTy).Contents (Elt Ideal)) (x : Mat 20000 256) : Mat 320000 256 :=
  Host.gather (α := EReal) gather_S20000x256_S320000x1_S320000x256_1_0_n_n_0_1_1256 x
    (broadcastInDim S320000x1 ![0] bcast_S320000_S320000x1_0
      (select (cmpi .slt src (broadcastInDim S320000 ![] bcast_S_S320000 (constantI S_ 32 0#32)))
        (addi src (broadcastInDim S320000 ![] bcast_S_S320000 (constantI S_ 32 20000#32))) src))

/-- The host's scatter-add of the edge rows into a zero array at the destination node of every edge. -/
abbrev scatterRows (dst : (⟨S320000, .i32⟩ : BufTy).Contents (Elt Ideal)) (u : Mat 320000 256) : Mat 20000 256 :=
  Host.scatterAdd (F := Ideal) (φ := .f32) scatter_S20000x256_S320000x1_S320000x256_1_0_0_1
    (broadcastInDim S20000x256 ![] bcast_S_S20000x256 (constant (F := Ideal) S_ .f32 0x00000000#32))
    (broadcastInDim S320000x1 ![0] bcast_S320000_S320000x1_0 dst) u

/-! ## The contents before the first kernel: the arguments, the transposed weights, the bias rows -/

theorem W1_arg0 (c : Dev nD) : (V1 m ρ c main_arg0 : Mat 20000 256) = m ((c.tc : Thread nD τ).loc main_arg0) := by
  show StableHlo.after hostOps0 (W0 m ρ c) (Proc.devRef .tc main_arg0) = _
  after_results
theorem W1_arg1 (c : Dev nD) : (W1 m ρ c (Proc.devRef .tc main_arg1) : Mat 320000 256) = m ((c.tc : Thread nD τ).loc main_arg1) := by
  show StableHlo.after hostOps0 (W0 m ρ c) (Proc.devRef .tc main_arg1) = _
  after_results
theorem W1_arg3 (c : Dev nD) : W1 m ρ c (Proc.devRef .tc main_arg3) = m ((c.tc : Thread nD τ).loc main_arg3) := by
  show StableHlo.after hostOps0 (W0 m ρ c) (Proc.devRef .tc main_arg3) = _
  after_results
theorem W1_arg4 (c : Dev nD) : W1 m ρ c (Proc.devRef .tc main_arg4) = m ((c.tc : Thread nD τ).loc main_arg4) := by
  show StableHlo.after hostOps0 (W0 m ρ c) (Proc.devRef .tc main_arg4) = _
  after_results
theorem W1_v0 (c : Dev nD) : (W1 m ρ c (Proc.devRef .tc main_v0) : Mat 256 256) = tr (m ((c.tc : Thread nD τ).loc main_arg5)) := by
  show StableHlo.after hostOps0 (W0 m ρ c) (Proc.devRef .tc main_v0) = _
  after_results
theorem W1_v1 (c : Dev nD) : (W1 m ρ c (Proc.devRef .tc main_v1) : Mat 256 256) = tr (m ((c.tc : Thread nD τ).loc main_arg7)) := by
  show StableHlo.after hostOps0 (W0 m ρ c) (Proc.devRef .tc main_v1) = _
  after_results
theorem W1_v2 (c : Dev nD) : (W1 m ρ c (Proc.devRef .tc main_v2) : Mat 256 256) = tr (m ((c.tc : Thread nD τ).loc main_arg9)) := by
  show StableHlo.after hostOps0 (W0 m ρ c) (Proc.devRef .tc main_v2) = _
  after_results
theorem W1_v3 (c : Dev nD) : (W1 m ρ c (Proc.devRef .tc main_v3) : Mat 1 256)
    = shapeCast S1x256 (m ((c.tc : Thread nD τ).loc main_arg6) : S256.Idx → EReal) shapeCasts_S256_S1x256 := by
  show StableHlo.after hostOps0 (W0 m ρ c) (Proc.devRef .tc main_v3) = _
  after_results
  rfl
theorem W1_v4 (c : Dev nD) : (W1 m ρ c (Proc.devRef .tc main_v4) : Mat 1 256)
    = shapeCast S1x256 (m ((c.tc : Thread nD τ).loc main_arg8) : S256.Idx → EReal) shapeCasts_S256_S1x256 := by
  show StableHlo.after hostOps0 (W0 m ρ c) (Proc.devRef .tc main_v4) = _
  after_results
  rfl
theorem W1_v5 (c : Dev nD) : (W1 m ρ c (Proc.devRef .tc main_v5) : Mat 1 256)
    = shapeCast S1x256 (m ((c.tc : Thread nD τ).loc main_arg10) : S256.Idx → EReal) shapeCasts_S256_S1x256 := by
  show StableHlo.after hostOps0 (W0 m ρ c) (Proc.devRef .tc main_v5) = _
  after_results
  rfl

/-- A bias reshaped to one row, read as a function of the column, is the bias. -/
theorem biasRow_cast (b : S256.Idx → EReal) :
    (fun q : Fin 256 => (shapeCast S1x256 b shapeCasts_S256_S1x256 : Mat 1 256) (ix2 (0 : Fin 1) q)) = bias1 b :=
  funext fun q => shapeCast_a_1a_apply b shapeCasts_S256_S1x256 0 q

/-! ## The node rows -/

/-- The node rows: mish of the node features' linear layer. -/
def nodeRows (c : Dev nD) : Mat 20000 256 :=
  mishLin (m ((c.tc : Thread nD τ).loc main_arg0)) (tr (m ((c.tc : Thread nD τ).loc main_arg5)))
    (bias1 (m ((c.tc : Thread nD τ).loc main_arg6)))

theorem W2_v6 (c : Dev nD) : (W2 m ρ c (Proc.devRef .tc main_v6) : Mat 20000 256) = nodeRows m c := by
  refine (W2_arr m ρ c 3).trans ?_
  rw [NodeProj.final]
  unfold NodeProj.G nodeRows NodeProj.biasRow
  rw [W1_arg0 m ρ c]
  show mishLin _ (W1 m ρ c (Proc.devRef .tc main_v0) : Mat 256 256)
    (fun q => (W1 m ρ c (Proc.devRef .tc main_v3) : Mat 1 256) (ix2 (0 : Fin 1) q)) = _
  rw [W1_v0 m ρ c, W1_v3 m ρ c, biasRow_cast]

/-! ## The contents before the second kernel -/

theorem W3_arg1 (c : Dev nD) : (W3 m ρ c (Proc.devRef .tc main_arg1) : Mat 320000 256) = m ((c.tc : Thread nD τ).loc main_arg1) := by
  show StableHlo.after hostOps1 (W2 m ρ c) (Proc.devRef .tc main_arg1) = _
  after_results
  rw [W2_of_ne m ρ c main_arg1 (by decide)]
  exact W1_arg1 m ρ c
theorem W3_v1 (c : Dev nD) : (W3 m ρ c (Proc.devRef .tc main_v1) : Mat 256 256) = tr (m ((c.tc : Thread nD τ).loc main_arg7)) := by
  show StableHlo.after hostOps1 (W2 m ρ c) (Proc.devRef .tc main_v1) = _
  after_results
  rw [W2_of_ne m ρ c main_v1 (by decide)]
  exact W1_v1 m ρ c
theorem W3_v4 (c : Dev nD) : (W3 m ρ c (Proc.devRef .tc main_v4) : Mat 1 256)
    = shapeCast S1x256 (m ((c.tc : Thread nD τ).loc main_arg8) : S256.Idx → EReal) shapeCasts_S256_S1x256 := by
  show StableHlo.after hostOps1 (W2 m ρ c) (Proc.devRef .tc main_v4) = _
  after_results
  rw [W2_of_ne m ρ c main_v4 (by decide)]
  exact W1_v4 m ρ c
theorem W3_v13 (c : Dev nD) : (W3 m ρ c (Proc.devRef .tc main_v13) : Mat 320000 256)
    = gatherRows (m ((c.tc : Thread nD τ).loc main_arg3)) (nodeRows m c) := by
  show StableHlo.after hostOps1 (W2 m ρ c) (Proc.devRef .tc main_v13) = _
  after_results
  rw [W2_v6 m ρ c, W2_of_ne m ρ c main_arg3 (by decide), W1_arg3 m ρ c]

/-! ## The messages -/

/-- The message of every edge. -/
def messages (c : Dev nD) : Mat 320000 256 :=
  message (m ((c.tc : Thread nD τ).loc main_arg1)) (gatherRows (m ((c.tc : Thread nD τ).loc main_arg3)) (nodeRows m c))
    (tr (m ((c.tc : Thread nD τ).loc main_arg7))) (bias1 (m ((c.tc : Thread nD τ).loc main_arg8)))

theorem W4_v14 (c : Dev nD) : (W4 m ρ c (Proc.devRef .tc main_v14) : Mat 320000 256) = messages m c := by
  refine (W4_arr m ρ c 4).trans ?_
  rw [EdgeMsg.final]
  unfold EdgeMsg.G messages EdgeMsg.biasRow
  show message (W3 m ρ c (Proc.devRef .tc main_arg1) : Mat 320000 256) (W3 m ρ c (Proc.devRef .tc main_v13) : Mat 320000 256)
    (W3 m ρ c (Proc.devRef .tc main_v1) : Mat 256 256)
    (fun q => (W3 m ρ c (Proc.devRef .tc main_v4) : Mat 1 256) (ix2 (0 : Fin 1) q)) = _
  rw [W3_arg1 m ρ c, W3_v13 m ρ c, W3_v1 m ρ c, W3_v4 m ρ c, biasRow_cast]

/-! ## The contents before the third kernel -/

theorem W5_v6 (c : Dev nD) : (W5 m ρ c (Proc.devRef .tc main_v6) : Mat 20000 256) = nodeRows m c := by
  show StableHlo.after hostOps2 (W4 m ρ c) (Proc.devRef .tc main_v6) = _
  after_results
  rw [W4_of_ne m ρ c main_v6 (by decide)]
  show StableHlo.after hostOps1 (W2 m ρ c) (Proc.devRef .tc main_v6) = _
  after_results
  exact W2_v6 m ρ c
theorem W5_v2 (c : Dev nD) : (W5 m ρ c (Proc.devRef .tc main_v2) : Mat 256 256) = tr (m ((c.tc : Thread nD τ).loc main_arg9)) := by
  show StableHlo.after hostOps2 (W4 m ρ c) (Proc.devRef .tc main_v2) = _
  after_results
  rw [W4_of_ne m ρ c main_v2 (by decide)]
  show StableHlo.after hostOps1 (W2 m ρ c) (Proc.devRef .tc main_v2) = _
  after_results
  rw [W2_of_ne m ρ c main_v2 (by decide)]
  exact W1_v2 m ρ c
theorem W5_v5 (c : Dev nD) : (W5 m ρ c (Proc.devRef .tc main_v5) : Mat 1 256)
    = shapeCast S1x256 (m ((c.tc : Thread nD τ).loc main_arg10) : S256.Idx → EReal) shapeCasts_S256_S1x256 := by
  show StableHlo.after hostOps2 (W4 m ρ c) (Proc.devRef .tc main_v5) = _
  after_results
  rw [W4_of_ne m ρ c main_v5 (by decide)]
  show StableHlo.after hostOps1 (W2 m ρ c) (Proc.devRef .tc main_v5) = _
  after_results
  rw [W2_of_ne m ρ c main_v5 (by decide)]
  exact W1_v5 m ρ c
theorem W4_arg4 (c : Dev nD) : W4 m ρ c (Proc.devRef .tc main_arg4) = m ((c.tc : Thread nD τ).loc main_arg4) := by
  rw [W4_of_ne m ρ c main_arg4 (by decide)]
  show StableHlo.after hostOps1 (W2 m ρ c) (Proc.devRef .tc main_arg4) = _
  after_results
  rw [W2_of_ne m ρ c main_arg4 (by decide)]
  exact W1_arg4 m ρ c
theorem W5_v17 (c : Dev nD) : (W5 m ρ c (Proc.devRef .tc main_v17) : Mat 20000 256)
    = scatterRows (m ((c.tc : Thread nD τ).loc main_arg4)) (messages m c) := by
  show StableHlo.after hostOps2 (W4 m ρ c) (Proc.devRef .tc main_v17) = _
  after_results
  rw [W4_v14 m ρ c, W4_arg4 m ρ c]

/-! ## The result -/

/-- The result array: the layer's function of the argument arrays. -/
theorem result_eq (c : Dev nD) : (W6 m ρ c (Proc.devRef .tc main_v18) : Mat 20000 256)
    = layer (gatherRows (m ((c.tc : Thread nD τ).loc main_arg3))) (scatterRows (m ((c.tc : Thread nD τ).loc main_arg4)))
        (m ((c.tc : Thread nD τ).loc main_arg0)) (m ((c.tc : Thread nD τ).loc main_arg1))
        (tr (m ((c.tc : Thread nD τ).loc main_arg5))) (tr (m ((c.tc : Thread nD τ).loc main_arg7)))
        (tr (m ((c.tc : Thread nD τ).loc main_arg9)))
        (bias1 (m ((c.tc : Thread nD τ).loc main_arg6))) (bias1 (m ((c.tc : Thread nD τ).loc main_arg8)))
        (bias1 (m ((c.tc : Thread nD τ).loc main_arg10))) := by
  refine (W6_arr m ρ c 4).trans ?_
  rw [NodeOut.final]
  unfold NodeOut.G NodeOut.biasRow
  show output (W5 m ρ c (Proc.devRef .tc main_v6) : Mat 20000 256) (W5 m ρ c (Proc.devRef .tc main_v17) : Mat 20000 256)
    (W5 m ρ c (Proc.devRef .tc main_v2) : Mat 256 256)
    (fun q => (W5 m ρ c (Proc.devRef .tc main_v5) : Mat 1 256) (ix2 (0 : Fin 1) q)) = _
  rw [W5_v6 m ρ c, W5_v17 m ρ c, W5_v2 m ρ c, W5_v5 m ρ c, biasRow_cast]
  rfl

end Cert.KernelIdeal.Layer

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«180471_j30554397343953_2_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.RefLayer.lean ====
/-
  The reference program's result as the layer's function of the argument arrays.

  Every stage of the reference is a host operation on whole arrays. The host's matrix product is the plain sum over
  the contracted axis; the bias, broadcast first to one row and then to every row, is read at its column; the zero
  arrays of the softplus and of the clipping are zero everywhere; the chain of host operations after the linear layer
  is mish entry by entry. The gather and the scatter-add are carried as they are.
-/
import proofs.«180471_j30554397343953_2_alg».proof.Proof.Gen.ReferenceIdeal.Run
import proofs.«180471_j30554397343953_2_alg».proof.Proof.Gen.ReferenceIdeal.Read
import proofs.«180471_j30554397343953_2_alg».proof.Proof.Mish
import proofs.«180471_j30554397343953_2_alg».proof.Proof.LibHostDotPlain
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.MishLayer

/-- A scalar zero broadcast to any shape is zero everywhere. -/
theorem zeros_apply {s : Shape} (h : (⟨0, ![]⟩ : Shape).BroadcastsInDim s (![] : Fin 0 → Fin s.rank)) (i : s.Idx) :
    broadcastInDim s ![] h (constant (F := Ideal) ⟨0, ![]⟩ .f32 0x00000000#32) i = 0 := by
  rw [broadcastInDim_apply _ h _ i ix0 (fun a => a.elim0)]
  show Ideal.ofBits .f32 0x00000000#32 = 0
  exact Ideal.ofBits_zero_f32

/-- A bias broadcast to one row and then to every row, read at (p, q), is the bias at q. -/
theorem bias_apply {n : Nat} (b : (⟨1, ![256]⟩ : Shape).Idx → EReal)
    (h1 : (⟨1, ![256]⟩ : Shape).BroadcastsInDim ⟨2, ![1, 256]⟩ (![1] : Fin 1 → Fin 2))
    (h2 : (⟨2, ![1, 256]⟩ : Shape).BroadcastsInDim ⟨2, ![n, 256]⟩ (![0, 1] : Fin 2 → Fin 2)) (p : Fin n) (q : Fin 256) :
    broadcastInDim ⟨2, ![n, 256]⟩ ![0, 1] h2 (broadcastInDim ⟨2, ![1, 256]⟩ ![1] h1 b) (ix2 p q) = b (ix1 q) := by
  rw [broadcastInDim_apply _ h2 _ (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])]
  exact broadcastInDim_apply _ h1 b (ix2 (0 : Fin 1) q) (ix1 q) (fun a => match a with
    | ⟨0, _⟩ => by show q.val = if (256 : Nat) = 1 then 0 else q.val; rw [if_neg (by decide)])

/-- The host's chain — product, bias, mish — is mish of the linear layer. -/
theorem mishLin_host {n : Nat} (X : Mat n 256) (Wt : Mat 256 256) (b : (⟨1, ![256]⟩ : Shape).Idx → EReal)
    (h1 : (⟨1, ![256]⟩ : Shape).BroadcastsInDim ⟨2, ![1, 256]⟩ (![1] : Fin 1 → Fin 2))
    (h2 : (⟨2, ![1, 256]⟩ : Shape).BroadcastsInDim ⟨2, ![n, 256]⟩ (![0, 1] : Fin 2 → Fin 2))
    (z0 z2 z5 : FVec Ideal ⟨2, ![n, 256]⟩ .f32) (hz0 : ∀ i, z0 i = 0) (hz2 : ∀ i, z2 i = 0) :
    mishH z0 z2 z5 (addf (Host.dotGeneral (F := Ideal) (φ₁ := .f32) (φ₂ := .f32) (DotDims.plain n 256 256) none X Wt)
      (broadcastInDim ⟨2, ![n, 256]⟩ ![0, 1] h2 (broadcastInDim ⟨2, ![1, 256]⟩ ![1] h1 b)))
      = mishLin X Wt (bias1 b) := by
  funext i
  obtain ⟨p, q, rfl⟩ : ∃ (p : Fin n) (q : Fin 256), i = ix2 p q := ⟨i 0, i 1, eq_ix2 i⟩
  rw [mishH_apply _ _ _ _ hz0 hz2, addf_apply, HostDotPlain.dotGeneral_apply, bias_apply]
  rfl

end Cert.MishLayer

namespace Cert.ReferenceIdeal.Layer

open Cert.ReferenceIdeal Cert.ReferenceIdeal.Gen Cert.ReferenceIdeal.Read Cert.MishLayer

variable (x0 : Mat 20000 256) (x1 : Mat 320000 256) (x3 x4 : (⟨S320000, .i32⟩ : BufTy).Contents (Elt Ideal))
  (x5 x7 x9 : Mat 256 256) (x6 x8 x10 : (⟨1, ![256]⟩ : Shape).Idx → EReal)

/-- The node rows. -/
theorem nodeRows_eq : (val_main_v7 (F := Ideal) x0 x5 x6 : Mat 20000 256)
    = mishLin x0 (val_main_v0 (F := Ideal) x5) (bias1 x6) :=
  mishLin_host x0 (val_main_v0 (F := Ideal) x5) x6 bcast_S256_S1x256_1 bcast_S1x256_S20000x256_0_1
    (val_main_call0_v0 (F := Ideal)) (val_main_call0_v2 (F := Ideal)) (val_main_call0_v5 (F := Ideal))
    (fun i => zeros_apply bcast_S_S20000x256 i) (fun i => zeros_apply bcast_S_S20000x256 i)

/-- The edge rows. -/
theorem edgeRows_eq : (val_main_v15 (F := Ideal) x1 x7 x8 : Mat 320000 256)
    = mishLin x1 (val_main_v8 (F := Ideal) x7) (bias1 x8) :=
  mishLin_host x1 (val_main_v8 (F := Ideal) x7) x8 bcast_S256_S1x256_1 bcast_S1x256_S320000x256_0_1
    (val_main_call1_v0 (F := Ideal)) (val_main_call1_v2 (F := Ideal)) (val_main_call1_v5 (F := Ideal))
    (fun i => zeros_apply bcast_S_S320000x256 i) (fun i => zeros_apply bcast_S_S320000x256 i)

/-- The host's row gather at the start indices made from the source node of every edge. -/
abbrev gatherRows (x : Mat 20000 256) : Mat 320000 256 :=
  Host.gather (α := EReal) gather_S20000x256_S320000x1_S320000x256_1_0_n_n_0_1_1256 x (val_main_v21 (F := Ideal) x3)

/-- The host's scatter-add into a zero array at the destination node of every edge. -/
abbrev scatterRows (u : Mat 320000 256) : Mat 20000 256 :=
  Host.scatterAdd (F := Ideal) (φ := .f32) scatter_S20000x256_S320000x1_S320000x256_1_0_0_1 (val_main_v25 (F := Ideal))
    (val_main_v26 (F := Ideal) x4) u

/-- The messages. -/
theorem messages_eq : (val_main_v24 (F := Ideal) x0 x1 x3 x5 x6 x7 x8 : Mat 320000 256)
    = message x1 (gatherRows x3 (mishLin x0 (val_main_v0 (F := Ideal) x5) (bias1 x6)))
        (val_main_v8 (F := Ideal) x7) (bias1 x8) := by
  funext i
  show max ((gatherRows x3 (val_main_v7 (F := Ideal) x0 x5 x6 : Mat 20000 256)) i + (val_main_v15 (F := Ideal) x1 x7 x8 : Mat 320000 256) i)
    ((val_main_call2_v0 (F := Ideal) : Mat 320000 256) i) = _
  rw [nodeRows_eq, edgeRows_eq, show (val_main_call2_v0 (F := Ideal) : Mat 320000 256) i = 0 from zeros_apply bcast_S_S320000x256 i]
  rfl

/-- The result. -/
theorem result_eq : (val_main_v36 (F := Ideal) x0 x1 x3 x4 x5 x6 x7 x8 x9 x10 : Mat 20000 256)
    = layer (gatherRows x3) (scatterRows x4) x0 x1 (val_main_v0 (F := Ideal) x5) (val_main_v8 (F := Ideal) x7)
        (val_main_v29 (F := Ideal) x9) (bias1 x6) (bias1 x8) (bias1 x10) := by
  have e := mishLin_host (val_main_v28 (F := Ideal) x0 x1 x3 x4 x5 x6 x7 x8 : Mat 20000 256) (val_main_v29 (F := Ideal) x9) x10
    bcast_S256_S1x256_1 bcast_S1x256_S20000x256_0_1
    (val_main_call3_v0 (F := Ideal)) (val_main_call3_v2 (F := Ideal)) (val_main_call3_v5 (F := Ideal))
    (fun i => zeros_apply bcast_S_S20000x256 i) (fun i => zeros_apply bcast_S_S20000x256 i)
  refine e.trans ?_
  show mishLin (fun i => (val_main_v7 (F := Ideal) x0 x5 x6 : Mat 20000 256) i
      + (scatterRows x4 (val_main_v24 (F := Ideal) x0 x1 x3 x5 x6 x7 x8 : Mat 320000 256)) i) _ _ = _
  rw [nodeRows_eq, messages_eq]
  rfl

end Cert.ReferenceIdeal.Layer

end
-- ==== Proof.lean ====
/-
  The certificate of the GINE-style message-passing layer: three kernels (node projection, edge messages, output
  projection) with the host's row gather and scatter-add between them, against the reference that computes every
  stage on the host.

  Over the extended reals a change of float format is the identity and the matrix unit's product into a zero
  accumulator is the host's dot product, so each kernel's result array is the same function of whole arrays as the
  reference's stage: mish of a linear layer for the node rows, max (source row + mish of the edge's linear layer) 0 for
  the messages, mish of the linear layer of node rows plus aggregated messages for the result. The gather and the
  scatter-add are the same host operations on both sides, applied to equal arrays. The two softplus spellings differ
  only in a never-taken branch and in writing a negation as a subtraction from zero. No law used needs the inputs
  finite, so the precondition is never opened.
-/
import proofs.«180471_j30554397343953_2_alg».proof.Defs
import proofs.«180471_j30554397343953_2_alg».proof.Proof.Gen.Kernel
import proofs.«180471_j30554397343953_2_alg».proof.Proof.Gen.Kernel.Skeleton
import proofs.«180471_j30554397343953_2_alg».proof.Proof.Gen.Kernel.Launch
import proofs.«180471_j30554397343953_2_alg».proof.Proof.Gen.Kernel.Points
import proofs.«180471_j30554397343953_2_alg».proof.Proof.Gen.Kernel.Frame
import proofs.«180471_j30554397343953_2_alg».proof.Proof.Gen.KernelIdeal
import proofs.«180471_j30554397343953_2_alg».proof.Proof.Gen.KernelIdeal.Skeleton
import proofs.«180471_j30554397343953_2_alg».proof.Proof.Gen.KernelIdeal.Launch
import proofs.«180471_j30554397343953_2_alg».proof.Proof.Gen.KernelIdeal.Points
import proofs.«180471_j30554397343953_2_alg».proof.Proof.Gen.KernelIdeal.Frame
import proofs.«180471_j30554397343953_2_alg».proof.Proof.Gen.ReferenceIdeal
import proofs.«180471_j30554397343953_2_alg».proof.Proof.Gen.Pre_finite_inputs
import proofs.«180471_j30554397343953_2_alg».proof.Proof.Gen.ReferenceIdeal.Run
import proofs.«180471_j30554397343953_2_alg».proof.Proof.Gen.ReferenceIdeal.Read
import proofs.«180471_j30554397343953_2_alg».proof.Proof.KernelRun
import proofs.«180471_j30554397343953_2_alg».proof.Proof.KernelLayer
import proofs.«180471_j30554397343953_2_alg».proof.Proof.RefLayer
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Gen.frame m ρ

/-- The idealized program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer's function of the argument arrays in their result. -/
theorem algebraic : Cert.algebraic_KernelIdeal_ReferenceIdeal := by
  intro m ρ m' ρ' _ hagree
  refine ⟨fun c => Cert.KernelIdeal.Gen.W6 m ρ c (Proc.devRef .tc Cert.KernelIdeal.main_v18),
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v36 m' c = Cert.KernelIdeal.Gen.W6 m ρ c (Proc.devRef .tc Cert.KernelIdeal.main_v18)
  obtain ⟨h0, h1, h2, h3, h4, h5, h6, h7, h8, h9, h10⟩ := hagree c
  rw [Cert.ReferenceIdeal.Read.val_main_v36_eq, h0, h1, h3, h4, h5, h6, h7, h8, h9, h10]
  refine (Cert.ReferenceIdeal.Layer.result_eq _ _ _ _ _ _ _ _ _ _).trans ?_
  exact (Cert.KernelIdeal.Layer.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
